-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8x1024x128 : Shape := ⟨3, ![8, 1024, 128]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8x1024x128 : S_.BroadcastsInDim S8x1024x128 (![] : Fin 0 → Fin S8x1024x128.rank)
  reducesTo_S8x1024x128_S_d0_1_2 : S8x1024x128.ReducesTo [0, 1, 2] S_

variable [Facts]

def fn {F : FTy → Type} [FloatOps F] (main_arg0 : FVec F S4096x8192 .f32) (main_arg1 : FVec F S8x1024x128 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8x1024x128 .f32 := Host.absf main_arg1
  let main_cst_0 : FVec F S_ .f32 := constant S_ .f32 0x7F800000#32
  let main_v5 : FVec F S8x1024x128 .f32 := broadcastInDim S8x1024x128 ![] bcast_S_S8x1024x128 main_cst_0
  let main_v6 : IVec S8x1024x128 1 := cmpf .olt main_v4 main_v5
  let main_c_1 : IVec S_ 1 := constantI S_ 1 1#1
  let main_v7 : IVec S_ 1 := (fun x v => Host.reduce IntOp.andi x v reducesTo_S8x1024x128_S_d0_1_2 h_S_) main_v6 main_c_1
  let main_v8 : IVec S_ 1 := andi main_v3 main_v7
  main_v8
-- ==== Kernel.lean ====
abbrev S4096x8192 : Shape := ⟨2, ![4096, 8192]⟩
abbrev S8x1024x128 : Shape := ⟨3, ![8, 1024, 128]⟩
abbrev S4096x1024 : Shape := ⟨2, ![4096, 1024]⟩
abbrev S256x8192 : Shape := ⟨2, ![256, 8192]⟩
abbrev S256x1024 : Shape := ⟨2, ![256, 1024]⟩
abbrev S1x1024x128 : Shape := ⟨3, ![1, 1024, 128]⟩
abbrev S1024x128 : Shape := ⟨2, ![1024, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S8x1024x128, .f32⟩
  | .hbm, ⟨2, _⟩ => ⟨S4096x1024, .f32⟩
  | .local _ .vmem, ⟨0, _⟩ => ⟨S256x8192, .f32⟩
  | .local _ .vmem, ⟨1, _⟩ => ⟨S256x8192, .f32⟩
  | .local _ .vmem, ⟨2, _⟩ => ⟨S8x1024x128, .f32⟩
  | .local _ .vmem, ⟨3, _⟩ => ⟨S256x1024, .f32⟩
  | .local _ .vmem, ⟨4, _⟩ => ⟨S256x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x1024_0_0 : ∀ a, (![0, 0] : Fin 2 → Nat) a + S256x1024.size a ≤ S256x8192.size a
  h_S256x1024 : 0 < S256x1024.numel
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  inb_S256x1024_S256x128_0_0 : ∀ a, (![0, 0] : Fin 2 → Nat) a + S256x128.size a ≤ S256x1024.size a
  h_S256x128 : 0 < S256x128.numel
  inb_S256x8192_S256x1024_0_1024 : ∀ a, (![0, 1024] : Fin 2 → Nat) a + S256x1024.size a ≤ S256x8192.size a
  inb_S8x1024x128_S1x1024x128_1_0_0 : ∀ a, (![1, 0, 0] : Fin 3 → Nat) a + S1x1024x128.size a ≤ S8x1024x128.size a
  inb_S256x1024_S256x128_0_128 : ∀ a, (![0, 128] : Fin 2 → Nat) a + S256x128.size a ≤ S256x1024.size a
  inb_S256x8192_S256x1024_0_2048 : ∀ a, (![0, 2048] : Fin 2 → Nat) a + S256x1024.size a ≤ S256x8192.size a
  inb_S8x1024x128_S1x1024x128_2_0_0 : ∀ a, (![2, 0, 0] : Fin 3 → Nat) a + S1x1024x128.size a ≤ S8x1024x128.size a
  inb_S256x1024_S256x128_0_256 : ∀ a, (![0, 256] : Fin 2 → Nat) a + S256x128.size a ≤ S256x1024.size a
  inb_S256x8192_S256x1024_0_3072 : ∀ a, (![0, 3072] : Fin 2 → Nat) a + S256x1024.size a ≤ S256x8192.size a
  inb_S8x1024x128_S1x1024x128_3_0_0 : ∀ a, (![3, 0, 0] : Fin 3 → Nat) a + S1x1024x128.size a ≤ S8x1024x128.size a
  inb_S256x1024_S256x128_0_384 : ∀ a, (![0, 384] : Fin 2 → Nat) a + S256x128.size a ≤ S256x1024.size a
  inb_S256x8192_S256x1024_0_4096 : ∀ a, (![0, 4096] : Fin 2 → Nat) a + S256x1024.size a ≤ S256x8192.size a
  inb_S8x1024x128_S1x1024x128_4_0_0 : ∀ a, (![4, 0, 0] : Fin 3 → Nat) a + S1x1024x128.size a ≤ S8x1024x128.size a
  inb_S256x1024_S256x128_0_512 : ∀ a, (![0, 512] : Fin 2 → Nat) a + S256x128.size a ≤ S256x1024.size a
  inb_S256x8192_S256x1024_0_5120 : ∀ a, (![0, 5120] : Fin 2 → Nat) a + S256x1024.size a ≤ S256x8192.size a
  inb_S8x1024x128_S1x1024x128_5_0_0 : ∀ a, (![5, 0, 0] : Fin 3 → Nat) a + S1x1024x128.size a ≤ S8x1024x128.size a
  inb_S256x1024_S256x128_0_640 : ∀ a, (![0, 640] : Fin 2 → Nat) a + S256x128.size a ≤ S256x1024.size a
  inb_S256x8192_S256x1024_0_6144 : ∀ a, (![0, 6144] : Fin 2 → Nat) a + S256x1024.size a ≤ S256x8192.size a
  inb_S8x1024x128_S1x1024x128_6_0_0 : ∀ a, (![6, 0, 0] : Fin 3 → Nat) a + S1x1024x128.size a ≤ S8x1024x128.size a
  inb_S256x1024_S256x128_0_768 : ∀ a, (![0, 768] : Fin 2 → Nat) a + S256x128.size a ≤ S256x1024.size a
  inb_S256x8192_S256x1024_0_7168 : ∀ a, (![0, 7168] : Fin 2 → Nat) a + S256x1024.size a ≤ S256x8192.size a
  inb_S8x1024x128_S1x1024x128_7_0_0 : ∀ a, (![7, 0, 0] : Fin 3 → Nat) a + S1x1024x128.size a ≤ S8x1024x128.size a
  inb_S256x1024_S256x128_0_896 : ∀ a, (![0, 896] : Fin 2 → Nat) a + S256x128.size a ≤ S256x1024.size a
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S8x1024x128.size a
  hwx0_1 : ∀ i : grid0.Coords, EltTy.bits .f32 = 32 ∨ (Rect.block (s := S8x1024x128) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8x1024x128 : Shape := ⟨3, ![8, 1024, 128]⟩
abbrev S4096x8x1024 : Shape := ⟨3, ![4096, 8, 1024]⟩
abbrev S4096x1x1024 : Shape := ⟨3, ![4096, 1, 1024]⟩
abbrev S4096x1024 : Shape := ⟨2, ![4096, 1024]⟩
abbrev S1x1024x128 : Shape := ⟨3, ![1, 1024, 128]⟩
abbrev S1024x128 : Shape := ⟨2, ![1024, 128]⟩
abbrev S4096x128 : Shape := ⟨2, ![4096, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8x1024x128, .f32⟩
  | .hbm, ⟨2, _⟩ => ⟨S4096x8x1024, .f32⟩
  | .hbm, ⟨3, _⟩ => ⟨S4096x1x1024, .f32⟩
  | .hbm, ⟨4, _⟩ => ⟨S4096x1024, .f32⟩
  | .hbm, ⟨5, _⟩ => ⟨S1x1024x128, .f32⟩
  | .hbm, ⟨6, _⟩ => ⟨S1024x128, .f32⟩
  | .hbm, ⟨7, _⟩ => ⟨S4096x128, .f32⟩
  | .hbm, ⟨8, _⟩ => ⟨S4096x1x1024, .f32⟩
  | .hbm, ⟨9, _⟩ => ⟨S4096x1024, .f32⟩
  | .hbm, ⟨10, _⟩ => ⟨S1x1024x128, .f32⟩
  | .hbm, ⟨11, _⟩ => ⟨S1024x128, .f32⟩
  | .hbm, ⟨12, _⟩ => ⟨S4096x128, .f32⟩
  | .hbm, ⟨13, _⟩ => ⟨S4096x1x1024, .f32⟩
  | .hbm, ⟨14, _⟩ => ⟨S4096x1024, .f32⟩
  | .hbm, ⟨15, _⟩ => ⟨S1x1024x128, .f32⟩
  | .hbm, ⟨16, _⟩ => ⟨S1024x128, .f32⟩
  | .hbm, ⟨17, _⟩ => ⟨S4096x128, .f32⟩
  | .hbm, ⟨18, _⟩ => ⟨S4096x1x1024, .f32⟩
  | .hbm, ⟨19, _⟩ => ⟨S4096x1024, .f32⟩
  | .hbm, ⟨20, _⟩ => ⟨S1x1024x128, .f32⟩
  | .hbm, ⟨21, _⟩ => ⟨S1024x128, .f32⟩
  | .hbm, ⟨22, _⟩ => ⟨S4096x128, .f32⟩
  | .hbm, ⟨23, _⟩ => ⟨S4096x1x1024, .f32⟩
  | .hbm, ⟨24, _⟩ => ⟨S4096x1024, .f32⟩
  | .hbm, ⟨25, _⟩ => ⟨S1x1024x128, .f32⟩
  | .hbm, ⟨26, _⟩ => ⟨S1024x128, .f32⟩
  | .hbm, ⟨27, _⟩ => ⟨S4096x128, .f32⟩
  | .hbm, ⟨28, _⟩ => ⟨S4096x1x1024, .f32⟩
  | .hbm, ⟨29, _⟩ => ⟨S4096x1024, .f32⟩
  | .hbm, ⟨30, _⟩ => ⟨S1x1024x128, .f32⟩
  | .hbm, ⟨31, _⟩ => ⟨S1024x128, .f32⟩
  | .hbm, ⟨32, _⟩ => ⟨S4096x128, .f32⟩
  | .hbm, ⟨33, _⟩ => ⟨S4096x1x1024, .f32⟩
  | .hbm, ⟨34, _⟩ => ⟨S4096x1024, .f32⟩
  | .hbm, ⟨35, _⟩ => ⟨S1x1024x128, .f32⟩
  | .hbm, ⟨36, _⟩ => ⟨S1024x128, .f32⟩
  | .hbm, ⟨37, _⟩ => ⟨S4096x128, .f32⟩
  | .hbm, ⟨38, _⟩ => ⟨S4096x1x1024, .f32⟩
  | .hbm, ⟨39, _⟩ => ⟨S4096x1024, .f32⟩
  | .hbm, ⟨40, _⟩ => ⟨S1x1024x128, .f32⟩
  | .hbm, ⟨41, _⟩ => ⟨S1024x128, .f32⟩
  | .hbm, ⟨42, _⟩ => ⟨S4096x128, .f32⟩
  | .hbm, ⟨43, _⟩ => ⟨S4096x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩

abbrev nD : Nat := 1
abbrev τ : Topo := Topo.v7x

variable {F : FTy → Type} [FloatOps F]

class Facts₀ : Prop where
  shapeCasts_S4096x8192_S4096x8x1024 : S4096x8192.ShapeCasts S4096x8x1024
  slices_S4096x8x1024_S4096x1x1024_0_0_0 : S4096x8x1024.Slices ![0, 0, 0] S4096x1x1024
  shapeCasts_S4096x1x1024_S4096x1024 : S4096x1x1024.ShapeCasts S4096x1024
  slices_S8x1024x128_S1x1024x128_0_0_0 : S8x1024x128.Slices ![0, 0, 0] S1x1024x128
  shapeCasts_S1x1024x128_S1024x128 : S1x1024x128.ShapeCasts S1024x128
  slices_S4096x8x1024_S4096x1x1024_0_1_0 : S4096x8x1024.Slices ![0, 1, 0] S4096x1x1024
  slices_S8x1024x128_S1x1024x128_1_0_0 : S8x1024x128.Slices ![1, 0, 0] S1x1024x128
  slices_S4096x8x1024_S4096x1x1024_0_2_0 : S4096x8x1024.Slices ![0, 2, 0] S4096x1x1024
  slices_S8x1024x128_S1x1024x128_2_0_0 : S8x1024x128.Slices ![2, 0, 0] S1x1024x128
  slices_S4096x8x1024_S4096x1x1024_0_3_0 : S4096x8x1024.Slices ![0, 3, 0] S4096x1x1024
  slices_S8x1024x128_S1x1024x128_3_0_0 : S8x1024x128.Slices ![3, 0, 0] S1x1024x128
  slices_S4096x8x1024_S4096x1x1024_0_4_0 : S4096x8x1024.Slices ![0, 4, 0] S4096x1x1024
  slices_S8x1024x128_S1x1024x128_4_0_0 : S8x1024x128.Slices ![4, 0, 0] S1x1024x128
  slices_S4096x8x1024_S4096x1x1024_0_5_0 : S4096x8x1024.Slices ![0, 5, 0] S4096x1x1024
  slices_S8x1024x128_S1x1024x128_5_0_0 : S8x1024x128.Slices ![5, 0, 0] S1x1024x128
  slices_S4096x8x1024_S4096x1x1024_0_6_0 : S4096x8x1024.Slices ![0, 6, 0] S4096x1x1024
  slices_S8x1024x128_S1x1024x128_6_0_0 : S8x1024x128.Slices ![6, 0, 0] S1x1024x128
  slices_S4096x8x1024_S4096x1x1024_0_7_0 : S4096x8x1024.Slices ![0, 7, 0] S4096x1x1024
  slices_S8x1024x128_S1x1024x128_7_0_0 : S8x1024x128.Slices ![7, 0, 0] S1x1024x128
  concatenates_S4096x128_S4096x128_S4096x128_S4096x128_S4096x128_S4096x128_S4096x128_S4096x128_S4096x1024_d1 : Shape.Concatenates [S4096x128, S4096x128, S4096x128, S4096x128, S4096x128, S4096x128, S4096x128, S4096x128] S4096x1024 1
  dot_S4096x1024_S1024x128_S4096x128_1_0_0_1_n_n_wf : DotDims.WF S4096x1024 S1024x128 S4096x128 [1] [0] [0] [1] [] []

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.GroupedProduct.lean ====
/-
  The grouped matrix product.

  An [R, 8192] matrix X is read as 8 groups of 1024 consecutive columns. Group g is multiplied by its own
  [1024, 128] matrix W[g], and the 8 products, [R, 128] each, are laid side by side into an [R, 1024] result.
  So entry (r, c) of the result belongs to group c / 128, sits in lane c % 128 of that group's product, and is

      sum over k < 1024 of  X[r, 1024 * (c / 128) + k] * W[c / 128, k, c % 128].

  The function is stated for any number of rows R: a block of rows of the result is then the same function of
  the same block of rows of X, which is how a row-blocked computation meets a whole-array one.
  Independent of any program.
-/
import Idealize.ShloMosaic.Lib.ValueIdx
import Idealize.ShloMosaic.PureOps.Ideal

noncomputable section

namespace Cert.Grouped

open Idealize.ShloMosaic Idealize.ShloMosaic.ValueIdx

/-- The group an output column belongs to. -/
def grp (c : Fin 1024) : Fin 8 := ⟨c.val / 128, by have := c.isLt; omega⟩

/-- Its lane inside that group's product. -/
def lane (c : Fin 1024) : Fin 128 := ⟨c.val % 128, Nat.mod_lt _ (by decide)⟩

/-- The column of X that output column `c` reads at position `k` of the contraction: position `k` of
    group `c / 128`. -/
def xcol (c : Fin 1024) (k : Fin 1024) : Fin 8192 :=
  ⟨c.val / 128 * 1024 + k.val, by have := c.isLt; have := k.isLt; omega⟩

theorem grp_val (c : Fin 1024) : (grp c).val = c.val / 128 := rfl
theorem lane_val (c : Fin 1024) : (lane c).val = c.val % 128 := rfl
theorem xcol_val (c k : Fin 1024) : (xcol c k).val = c.val / 128 * 1024 + k.val := rfl

/-- Entry (r, c) of the grouped product. -/
def entry {R : Nat} (X : (⟨2, ![R, 8192]⟩ : Shape).Idx → EReal) (W : (⟨3, ![8, 1024, 128]⟩ : Shape).Idx → EReal)
    (r : Fin R) (c : Fin 1024) : EReal :=
  ∑ k : Fin 1024, X (ix2 r (xcol c k)) * W (ix3 (grp c) k (lane c))

/-- The grouped product as one [R, 1024] array. -/
def product {R : Nat} (X : (⟨2, ![R, 8192]⟩ : Shape).Idx → EReal) (W : (⟨3, ![8, 1024, 128]⟩ : Shape).Idx → EReal) :
    (⟨2, ![R, 1024]⟩ : Shape).Idx → EReal :=
  fun i => entry X W (i 0) (i 1)

theorem product_ix2 {R : Nat} (X : (⟨2, ![R, 8192]⟩ : Shape).Idx → EReal)
    (W : (⟨3, ![8, 1024, 128]⟩ : Shape).Idx → EReal) (r : Fin R) (c : Fin 1024) :
    product X W (ix2 r c) = entry X W r c := rfl

end Cert.Grouped

end
-- ==== Proof.KernelBlock.lean ====
/-
  What the kernel body leaves in its output block.

  At one grid point the body holds a [256, 8192] block x0 of X and the whole of W as x1. For each group g < 8 it
  loads columns 1024 g .. 1024 g + 1023 of x0 and slab g of x1 (a [1, 1024, 128] piece, its unit axis dropped),
  multiplies them into a zero accumulator, and stores the [256, 128] product at columns 128 g .. 128 g + 127 of
  the [256, 1024] output block. Entry (p, q) of group g's product is the sum over k of x0[p, 1024 g + k] *
  x1[g, k, q], which is entry (p, 128 g + q) of the grouped product of x0 and x1 (column 128 g + q has group g
  and lane q). The 8 column ranges tile the block, so after the body the block IS the grouped product of x0 and x1.
-/
import proofs.«110204_g34935263986399_cont_8to1_b_1924_11_alg».proof.Proof.Gen.KernelIdeal.Frame
import proofs.«110204_g34935263986399_cont_8to1_b_1924_11_alg».proof.Proof.LibPlainDot
import proofs.«110204_g34935263986399_cont_8to1_b_1924_11_alg».proof.Proof.GroupedProduct
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Grouped

/-- One group's product at (p, q): a [256, 1024] slab `v` times a [1, 1024, 128] slab `w` read without its unit
    axis, into zeros, is the sum over k of v[p, k] * w[0, k, q]. -/
theorem slab_apply (v : Vec Ideal S256x1024 .f32) (w : Vec Ideal S1x1024x128 .f32) (p : Fin 256) (q : Fin 128) :
    matmul (F := Ideal) (φ₁ := .f32) (φ₂ := .f32) dot_S256x1024_S1024x128_S256x128_1_0_0_1_n_n none v
        (shapeCast S1024x128 w shapeCasts_S1x1024x128_S1024x128) (constant (F := Ideal) S256x128 .f32 0x00000000#32) (ix2 p q)
      = ∑ k : Fin 1024, v (ix2 p k) * w (ix3 (0 : Fin 1) k q) := by
  refine (Cert.Lib.matmul_zero_apply dot_S256x1024_S1024x128_S256x128_1_0_0_1_n_n_wf none v
    (shapeCast S1024x128 w shapeCasts_S1x1024x128_S1024x128) p q).trans ?_
  refine Finset.sum_congr rfl fun k _ => congrArg (fun z => v (ix2 p k) * z) ?_
  exact shapeCast_apply w shapeCasts_S1x1024x128_S1024x128 (ix2 k q) (ix3 (0 : Fin 1) k q)
    (by rewrite [Shape.rowMajor_val_three, Shape.rowMajor_val_two]
        show (0 * 1024 + k.val) * 128 + q.val = k.val * 128 + q.val
        omega)

/-- GROUP g's STORE AGREES WITH THE GROUPED PRODUCT: the product of columns 1024 g .. of x0 with slab g of x1, at
    (p, q), is the grouped product of x0 and x1 at the place the store puts it, (p, 128 g + q). -/
theorem group_store (g : Nat) (hg : g < 8)
    (inbX : ∀ a, (![0, 1024 * g] : Fin 2 → Nat) a + S256x1024.size a ≤ S256x8192.size a)
    (inbW : ∀ a, (![g, 0, 0] : Fin 3 → Nat) a + S1x1024x128.size a ≤ S8x1024x128.size a)
    (inbO : ∀ a, (![0, 128 * g] : Fin 2 → Nat) a + S256x128.size a ≤ S256x1024.size a)
    (x0 : Vec Ideal S256x8192 .f32) (x1 : Vec Ideal S8x1024x128 .f32) (p : Fin 256) (q : Fin 128) :
    matmul (F := Ideal) (φ₁ := .f32) (φ₂ := .f32) dot_S256x1024_S1024x128_S256x128_1_0_0_1_n_n none
        (View.ld x0 (Rect.unit (s := S256x8192) ![0, 1024 * g] S256x1024.size inbX))
        (shapeCast S1024x128 (View.ld x1 (Rect.unit (s := S8x1024x128) ![g, 0, 0] S1x1024x128.size inbW))
          shapeCasts_S1x1024x128_S1024x128)
        (constant (F := Ideal) S256x128 .f32 0x00000000#32) (ix2 p q)
      = product (R := 256) x0 x1 ((Rect.unit (s := S256x1024) ![0, 128 * g] S256x128.size inbO).emb (ix2 p q)) := by
  have hp := p.isLt
  have hq := q.isLt
  -- where the store puts (p, q), and that column's group and lane
  have hc : 128 * g + q.val < 1024 := by omega
  have eO : (Rect.unit (s := S256x1024) ![0, 128 * g] S256x128.size inbO).emb (ix2 p q)
      = ix2 p (⟨128 * g + q.val, hc⟩ : Fin 1024) := by
    funext a; apply Fin.ext
    match a with
    | ⟨0, _⟩ => show 0 + 1 * p.val = p.val; omega
    | ⟨1, _⟩ => show 128 * g + 1 * q.val = 128 * g + q.val; omega
  rw [eO, product_ix2]
  refine (slab_apply _ _ p q).trans ?_
  unfold entry
  refine Finset.sum_congr rfl fun k _ => ?_
  have hk := k.isLt
  have eX : (Rect.unit (s := S256x8192) ![0, 1024 * g] S256x1024.size inbX).idx (ix2 p k)
      = ix2 p (xcol (⟨128 * g + q.val, hc⟩ : Fin 1024) k) := by
    funext a; apply Fin.ext
    match a with
    | ⟨0, _⟩ => show 0 + 1 * p.val = p.val; omega
    | ⟨1, _⟩ => show 1024 * g + 1 * k.val = (128 * g + q.val) / 128 * 1024 + k.val; omega
  have eW : (Rect.unit (s := S8x1024x128) ![g, 0, 0] S1x1024x128.size inbW).idx (ix3 (0 : Fin 1) k q)
      = ix3 (grp (⟨128 * g + q.val, hc⟩ : Fin 1024)) k (lane (⟨128 * g + q.val, hc⟩ : Fin 1024)) := by
    funext a; apply Fin.ext
    match a with
    | ⟨0, _⟩ => show g + 1 * 0 = (128 * g + q.val) / 128; omega
    | ⟨1, _⟩ => show 0 + 1 * k.val = k.val; omega
    | ⟨2, _⟩ => show 0 + 1 * q.val = (128 * g + q.val) % 128; omega
  show x0 ((Rect.unit (s := S256x8192) ![0, 1024 * g] S256x1024.size inbX).idx (ix2 p k))
      * x1 ((Rect.unit (s := S8x1024x128) ![g, 0, 0] S1x1024x128.size inbW).idx (ix3 (0 : Fin 1) k q)) = _
  rw [eX, eW]

/-- The same at an index of the [256, 128] product, whatever its coordinates are called. -/
theorem group_store_at (g : Nat) (hg : g < 8)
    (inbX : ∀ a, (![0, 1024 * g] : Fin 2 → Nat) a + S256x1024.size a ≤ S256x8192.size a)
    (inbW : ∀ a, (![g, 0, 0] : Fin 3 → Nat) a + S1x1024x128.size a ≤ S8x1024x128.size a)
    (inbO : ∀ a, (![0, 128 * g] : Fin 2 → Nat) a + S256x128.size a ≤ S256x1024.size a)
    (x0 : Vec Ideal S256x8192 .f32) (x1 : Vec Ideal S8x1024x128 .f32) (x : S256x128.Idx) :
    matmul (F := Ideal) (φ₁ := .f32) (φ₂ := .f32) dot_S256x1024_S1024x128_S256x128_1_0_0_1_n_n none
        (View.ld x0 (Rect.unit (s := S256x8192) ![0, 1024 * g] S256x1024.size inbX))
        (shapeCast S1024x128 (View.ld x1 (Rect.unit (s := S8x1024x128) ![g, 0, 0] S1x1024x128.size inbW))
          shapeCasts_S1x1024x128_S1024x128)
        (constant (F := Ideal) S256x128 .f32 0x00000000#32) x
      = product (R := 256) x0 x1 ((Rect.unit (s := S256x1024) ![0, 128 * g] S256x128.size inbO).emb x) := by
  obtain ⟨p, q, rfl⟩ : ∃ (p : Fin 256) (q : Fin 128), x = ix2 p q := ⟨x 0, x 1, eq_ix2 x⟩
  exact group_store g hg inbX inbW inbO x0 x1 p q

/-- AFTER THE BODY the output block is the grouped product of the two loaded blocks: each of the 8 stores agrees
    with it on its column range (`group_store`), and the ranges cover the block. -/
theorem out_block (x0 : Vec Ideal S256x8192 .f32) (x1 : Vec Ideal S8x1024x128 .f32) :
    out0_2 (F := Ideal) x0 x1 = product (R := 256) x0 x1 := by
  funext y
  unfold out0_2
  refine View.canon_apply_of_pieces (Val := Elt Ideal) (S := S256x1024) (e := .f32) (product (R := 256) x0 x1) _ ?_ y
    (cover0_2 _ _ _ _ _ _ _ _ y)
  intro pc hpc
  simp only [List.mem_cons, List.not_mem_nil, or_false] at hpc
  rcases hpc with rfl | rfl | rfl | rfl | rfl | rfl | rfl | rfl
  · exact fun x => group_store_at 7 (by omega) inb_S256x8192_S256x1024_0_7168 inb_S8x1024x128_S1x1024x128_7_0_0
      inb_S256x1024_S256x128_0_896 x0 x1 x
  · exact fun x => group_store_at 6 (by omega) inb_S256x8192_S256x1024_0_6144 inb_S8x1024x128_S1x1024x128_6_0_0
      inb_S256x1024_S256x128_0_768 x0 x1 x
  · exact fun x => group_store_at 5 (by omega) inb_S256x8192_S256x1024_0_5120 inb_S8x1024x128_S1x1024x128_5_0_0
      inb_S256x1024_S256x128_0_640 x0 x1 x
  · exact fun x => group_store_at 4 (by omega) inb_S256x8192_S256x1024_0_4096 inb_S8x1024x128_S1x1024x128_4_0_0
      inb_S256x1024_S256x128_0_512 x0 x1 x
  · exact fun x => group_store_at 3 (by omega) inb_S256x8192_S256x1024_0_3072 inb_S8x1024x128_S1x1024x128_3_0_0
      inb_S256x1024_S256x128_0_384 x0 x1 x
  · exact fun x => group_store_at 2 (by omega) inb_S256x8192_S256x1024_0_2048 inb_S8x1024x128_S1x1024x128_2_0_0
      inb_S256x1024_S256x128_0_256 x0 x1 x
  · exact fun x => group_store_at 1 (by omega) inb_S256x8192_S256x1024_0_1024 inb_S8x1024x128_S1x1024x128_1_0_0
      inb_S256x1024_S256x128_0_128 x0 x1 x
  · exact fun x => group_store_at 0 (by omega) inb_S256x8192_S256x1024_0_0 inb_S8x1024x128_S1x1024x128_0_0_0
      inb_S256x1024_S256x128_0_0 x0 x1 x

end Cert.KernelIdeal.Block

end
-- ==== Proof.KernelArray.lean ====
/-
  The kernel's whole output array.

  The grid has 16 points. Point t stages rows 256 t .. 256 t + 255 of X (all 8192 columns), the whole of W, and
  writes back rows 256 t .. 256 t + 255 of the [4096, 1024] output. By `Block.out_block` what it writes back is
  the grouped product of its block of X with W. The grouped product works row by row, so the grouped product of
  rows 256 t .. of X is rows 256 t .. of the grouped product of X. Every output row r lies in exactly the block of
  point r / 256, so the 16 blocks cover the array and the array ends as the grouped product of X and W.
-/
import proofs.«110204_g34935263986399_cont_8to1_b_1924_11_alg».proof.Proof.Gen.KernelIdeal.Value
import proofs.«110204_g34935263986399_cont_8to1_b_1924_11_alg».proof.Proof.KernelBlock
import Idealize.ShloMosaic.Lib.Pipeline.Value
import Idealize.ShloMosaic.Lib.ValueIdx

noncomputable section

namespace Cert.KernelIdeal.Array

open Cert.KernelIdeal Cert.KernelIdeal.Gen Idealize.ShloMosaic Idealize.ShloMosaic.TcCoe Idealize.SL.Sem
open Idealize.ShloMosaic.ValueIdx Cert.Grouped
open Idealize.ShloMosaic.Pipeline (Dat)

variable (m : (ℓ : Loc nD τ sig) → Buf (Elt Ideal) ℓ) (ρ : Dev nD → PrngReg)

/-- The three index maps over the grid: X's and the output's row-block index is the point, every other block
    index is zero. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem point_lt (t : Fin cfg0.N) : t.val < 16 := lt_of_lt_of_eq t.isLt N_0

/-- Row p, column x of point t's block of X is row 256 t + p, column x of X. -/
theorem read_X (c : Dev nD) (t : Fin cfg0.N) (p : Fin 256) (x : Fin 8192) :
    iblk m c 0 t (ix2 p x)
      = V m c main_arg0 (ix2 (⟨t.val * 256 + p.val, by have := point_lt t; have := p.isLt; omega⟩ : Fin 4096) x) := by
  obtain ⟨e00, e01, -, -, -, -, -⟩ := idx_facts t
  show V m c main_arg0 (((cfg0.win 0).blk t).view.emb (ix2 p x)) = _
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 8192 + 1 * x.val = x.val; omega

/-- Point t's block of W is W. -/
theorem read_W (c : Dev nD) (t : Fin cfg0.N) (g : Fin 8) (k : Fin 1024) (l : Fin 128) :
    iblk m c 1 t (ix3 g k l) = V m c main_arg1 (ix3 g k l) := by
  obtain ⟨-, -, e10, e11, e12, -, -⟩ := idx_facts t
  show V m c main_arg1 (((cfg0.win 1).blk t).view.emb (ix3 g k l)) = _
  refine congrArg (V m c main_arg1) (funext fun a => Fin.ext ?_)
  match a with
  | ⟨0, _⟩ => show win0_1.index t (0 : Fin 3) * 8 + 1 * g.val = g.val; omega
  | ⟨1, _⟩ => show win0_1.index t (1 : Fin 3) * 1024 + 1 * k.val = k.val; omega
  | ⟨2, _⟩ => show win0_1.index t (2 : Fin 3) * 128 + 1 * l.val = l.val; omega

/-- Row p, column q of point t's output block sits at row 256 t + p, column q of the output. -/
theorem out_place (t : Fin cfg0.N) (p : Fin 256) (q : Fin 1024) :
    ((cfg0.win 2).blk t).view.emb (ix2 p q)
      = ix2 (⟨t.val * 256 + p.val, by have := point_lt t; have := p.isLt; omega⟩ : Fin 4096) q := by
  obtain ⟨-, -, -, -, -, e20, e21⟩ := idx_facts t
  funext a; apply Fin.ext
  match a with
  | ⟨0, _⟩ => show win0_2.index t (0 : Fin 2) * 256 + 1 * p.val = t.val * 256 + p.val; omega
  | ⟨1, _⟩ => show win0_2.index t (1 : Fin 2) * 1024 + 1 * q.val = q.val; omega

/-- WHAT POINT t WRITES BACK is block t of the grouped product of X and W as the region finds them. -/
theorem flushed_eq (c : Dev nD) (t : Fin cfg0.N) :
    (dats m 0 c).flushed 2 t
      = ((cfg0.win 2).blk t).view.read (Elt Ideal) (product (R := 4096) (V m c main_arg0) (V m c main_arg1)) := by
  rw [Value.flushed2, Block.out_block (iblk m c 0 t) (iblk m c 1 t)]
  funext j
  obtain ⟨p, q, rfl⟩ : ∃ (p : Fin 256) (q : Fin 1024), j = ix2 p q := ⟨j 0, j 1, eq_ix2 j⟩
  show product (R := 256) (iblk m c 0 t) (iblk m c 1 t) (ix2 p q)
      = product (R := 4096) (V m c main_arg0) (V m c main_arg1) (((cfg0.win 2).blk t).view.emb (ix2 p q))
  rw [out_place t p q, product_ix2, product_ix2]
  unfold entry
  refine Finset.sum_congr rfl fun k _ => ?_
  rw [read_X m c t p (xcol q k), read_W m c t (grp q) k (lane q)]

/-- An index of the output is in point t's block iff each coordinate is in the block's range on its axis. -/
theorem mem_blk (t : Fin cfg0.N) (i : S4096x1024.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v0).slice (win0_2.rect t)).set ↔ _
  rw [View.set_slice_whole, Rect.mem_set_unit]
  exact Iff.rfl

/-- EVERY output index is in some point's block: row r in that of point r / 256. -/
theorem cover (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 16 := N_0
  let t : Fin cfg0.N := ⟨(i 0).val / 256, by rw [hN]; omega⟩
  have ht : t.val = (i 0).val / 256 := rfl
  obtain ⟨-, -, -, -, -, e20, e21⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

/-- THE ARRAY after the run is the grouped product of the argument arrays. -/
theorem final (c : Dev nD) :
    (dats m 0 c).arrAt 2 cfg0.N
      = product (R := 4096) (m ((c : Thread nD τ).loc main_arg0)) (m ((c : Thread nD τ).loc main_arg1)) :=
  (dats m 0 c).arrAt_eq_of_cover 2 (product (R := 4096) (V m c main_arg0) (V m c main_arg1))
    (fun t _ => flushed_eq m c t) cover

/-- The kernel's run, read: the result array ends as the grouped product of the argument arrays, which are kept. -/
theorem run : θ_run defs (onTc (τ := τ) (main (F := Ideal))) ⟨m, fun _ => 0, ρ⟩ fun r => ∀ c : Dev nD,
      r.2.mem ((c : Thread nD τ).loc main_v0)
        = product (R := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.ReferenceGroups.lean ====
/-
  What the reference computes.

  The reference reshapes X [4096, 8192] to [4096, 8, 1024] (column 1024 g + k becomes (g, k)), and for each group
  g < 8 takes the slice at g, drops the unit axis to get a [4096, 1024] matrix whose (r, k) entry is X[r, 1024 g + k],
  takes slab g of W with its unit axis dropped, whose (k, q) entry is W[g, k, q], and multiplies the two. Entry
  (r, q) of that product is the sum over k of X[r, 1024 g + k] * W[g, k, q]. The 8 products are joined along the
  columns, so column c of the result is column c % 128 of product c / 128: entry (r, c) of the grouped product.
-/
import proofs.«110204_g34935263986399_cont_8to1_b_1924_11_alg».proof.Proof.Gen.ReferenceIdeal.Read
import proofs.«110204_g34935263986399_cont_8to1_b_1924_11_alg».proof.Proof.LibPlainDot
import proofs.«110204_g34935263986399_cont_8to1_b_1924_11_alg».proof.Proof.GroupedProduct
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx Cert.Grouped

/-- GROUP g OF THE REFERENCE at row r and lane c % 128, for a column c of group g, is entry (r, c) of the grouped
    product: the reshapes and the two slices only rename indices, and the host's matrix product is the sum over k. -/
theorem group_apply (g : Nat) (hg : g < 8)
    (hsX : S4096x8x1024.Slices ![0, g, 0] S4096x1x1024) (hsW : S8x1024x128.Slices ![g, 0, 0] S1x1024x128)
    (X : FVec Ideal S4096x8192 .f32) (W : FVec Ideal S8x1024x128 .f32) (r : Fin 4096) (c : Fin 1024)
    (hc : c.val / 128 = g) :
    Host.dotGeneral (F := Ideal) (φ₁ := .f32) (φ₂ := .f32) dot_S4096x1024_S1024x128_S4096x128_1_0_0_1_n_n none
        (shapeCast S4096x1024 (extractStridedSlice S4096x1x1024 ![0, g, 0]
          (shapeCast S4096x8x1024 X shapeCasts_S4096x8192_S4096x8x1024) hsX) shapeCasts_S4096x1x1024_S4096x1024)
        (shapeCast S1024x128 (extractStridedSlice S1x1024x128 ![g, 0, 0] W hsW) shapeCasts_S1x1024x128_S1024x128)
        (ix2 r (lane c))
      = entry (R := 4096) X W r c := by
  have hr := r.isLt
  have hcl := c.isLt
  refine (Cert.Lib.dotGeneral_plain_apply dot_S4096x1024_S1024x128_S4096x128_1_0_0_1_n_n_wf none .single _ _ r (lane c)).trans ?_
  unfold entry
  refine Finset.sum_congr rfl fun k _ => ?_
  have hk := k.isLt
  -- the left operand at (r, k) is X at row r, position k of group g
  have eX : shapeCast S4096x1024 (extractStridedSlice S4096x1x1024 ![0, g, 0]
        (shapeCast S4096x8x1024 X shapeCasts_S4096x8192_S4096x8x1024) hsX) shapeCasts_S4096x1x1024_S4096x1024 (ix2 r k)
      = X (ix2 r (xcol c k)) := by
    refine (shapeCast_apply _ shapeCasts_S4096x1x1024_S4096x1024 (ix2 r k) (ix3 r (0 : Fin 1) k) ?_).trans ?_
    · rewrite [Shape.rowMajor_val_three, Shape.rowMajor_val_two]
      show (r.val * 1 + 0) * 1024 + k.val = r.val * 1024 + k.val
      omega
    refine (extractStridedSlice_apply ![0, g, 0] _ hsX (ix3 r (0 : Fin 1) k) (ix3 r (⟨g, hg⟩ : Fin 8) k) ?_).trans ?_
    · intro a
      match a with
      | ⟨0, _⟩ => show r.val = 0 + r.val; omega
      | ⟨1, _⟩ => show g = g + 0; omega
      | ⟨2, _⟩ => show k.val = 0 + k.val; omega
    refine shapeCast_apply X shapeCasts_S4096x8192_S4096x8x1024 (ix3 r (⟨g, hg⟩ : Fin 8) k) (ix2 r (xcol c k)) ?_
    rewrite [Shape.rowMajor_val_two, Shape.rowMajor_val_three]
    show r.val * 8192 + (c.val / 128 * 1024 + k.val) = (r.val * 8 + g) * 1024 + k.val
    omega
  -- the right operand at (k, c % 128) is W at slab g
  have eW : shapeCast S1024x128 (extractStridedSlice S1x1024x128 ![g, 0, 0] W hsW) shapeCasts_S1x1024x128_S1024x128
        (ix2 k (lane c))
      = W (ix3 (grp c) k (lane c)) := by
    refine (shapeCast_apply _ shapeCasts_S1x1024x128_S1024x128 (ix2 k (lane c)) (ix3 (0 : Fin 1) k (lane c)) ?_).trans ?_
    · rewrite [Shape.rowMajor_val_three, Shape.rowMajor_val_two]
      show (0 * 1024 + k.val) * 128 + c.val % 128 = k.val * 128 + c.val % 128
      omega
    refine extractStridedSlice_apply ![g, 0, 0] W hsW (ix3 (0 : Fin 1) k (lane c)) (ix3 (grp c) k (lane c)) ?_
    intro a
    match a with
    | ⟨0, _⟩ => show c.val / 128 = g + 0; omega
    | ⟨1, _⟩ => show k.val = 0 + k.val; omega
    | ⟨2, _⟩ => show c.val % 128 = 0 + c.val % 128; omega
  exact congrArg₂ (fun a b : EReal => a * b) eX eW

/-- Columns 0 .. 127 of the join are group 0. -/
theorem join_group0 (X : FVec Ideal S4096x8192 .f32) (W : FVec Ideal S8x1024x128 .f32) (r : Fin 4096) (c : Fin 1024)
    (h : c.val / 128 = 0) : Read.val_main_v41 (F := Ideal) X W (ix2 r c) = entry (R := 4096) X W r c := by
  have hcl := c.isLt
  unfold Read.val_main_v41
  refine Eq.trans (concatenate_apply_piece (1 : Fin 2) _ _ (ix2 r c) 0 ?_ S4096x128 (Read.val_main_v5 (F := Ideal) X W) ?_ rfl
    0 ?_ (ix2 r (lane c)) ?_ ?_) ?_
  · show 0 < 8
    omega
  · rfl
  · rfl
  · intro b hb
    match b with
    | ⟨0, _⟩ => rfl
    | ⟨1, _⟩ => exact absurd (Fin.ext rfl) hb
  · show 0 + c.val % 128 = c.val
    omega
  · exact group_apply 0 (by omega) slices_S4096x8x1024_S4096x1x1024_0_0_0 slices_S8x1024x128_S1x1024x128_0_0_0 X W r c h

/-- Columns 128 .. 255 of the join are group 1. -/
theorem join_group1 (X : FVec Ideal S4096x8192 .f32) (W : FVec Ideal S8x1024x128 .f32) (r : Fin 4096) (c : Fin 1024)
    (h : c.val / 128 = 1) : Read.val_main_v41 (F := Ideal) X W (ix2 r c) = entry (R := 4096) X W r c := by
  have hcl := c.isLt
  unfold Read.val_main_v41
  refine Eq.trans (concatenate_apply_piece (1 : Fin 2) _ _ (ix2 r c) 1 ?_ S4096x128 (Read.val_main_v10 (F := Ideal) X W) ?_ rfl
    128 ?_ (ix2 r (lane c)) ?_ ?_) ?_
  · show 1 < 8
    omega
  · rfl
  · rfl
  · intro b hb
    match b with
    | ⟨0, _⟩ => rfl
    | ⟨1, _⟩ => exact absurd (Fin.ext rfl) hb
  · show 128 + c.val % 128 = c.val
    omega
  · exact group_apply 1 (by omega) slices_S4096x8x1024_S4096x1x1024_0_1_0 slices_S8x1024x128_S1x1024x128_1_0_0 X W r c h

/-- Columns 256 .. 383 of the join are group 2. -/
theorem join_group2 (X : FVec Ideal S4096x8192 .f32) (W : FVec Ideal S8x1024x128 .f32) (r : Fin 4096) (c : Fin 1024)
    (h : c.val / 128 = 2) : Read.val_main_v41 (F := Ideal) X W (ix2 r c) = entry (R := 4096) X W r c := by
  have hcl := c.isLt
  unfold Read.val_main_v41
  refine Eq.trans (concatenate_apply_piece (1 : Fin 2) _ _ (ix2 r c) 2 ?_ S4096x128 (Read.val_main_v15 (F := Ideal) X W) ?_ rfl
    256 ?_ (ix2 r (lane c)) ?_ ?_) ?_
  · show 2 < 8
    omega
  · rfl
  · rfl
  · intro b hb
    match b with
    | ⟨0, _⟩ => rfl
    | ⟨1, _⟩ => exact absurd (Fin.ext rfl) hb
  · show 256 + c.val % 128 = c.val
    omega
  · exact group_apply 2 (by omega) slices_S4096x8x1024_S4096x1x1024_0_2_0 slices_S8x1024x128_S1x1024x128_2_0_0 X W r c h

/-- Columns 384 .. 511 of the join are group 3. -/
theorem join_group3 (X : FVec Ideal S4096x8192 .f32) (W : FVec Ideal S8x1024x128 .f32) (r : Fin 4096) (c : Fin 1024)
    (h : c.val / 128 = 3) : Read.val_main_v41 (F := Ideal) X W (ix2 r c) = entry (R := 4096) X W r c := by
  have hcl := c.isLt
  unfold Read.val_main_v41
  refine Eq.trans (concatenate_apply_piece (1 : Fin 2) _ _ (ix2 r c) 3 ?_ S4096x128 (Read.val_main_v20 (F := Ideal) X W) ?_ rfl
    384 ?_ (ix2 r (lane c)) ?_ ?_) ?_
  · show 3 < 8
    omega
  · rfl
  · rfl
  · intro b hb
    match b with
    | ⟨0, _⟩ => rfl
    | ⟨1, _⟩ => exact absurd (Fin.ext rfl) hb
  · show 384 + c.val % 128 = c.val
    omega
  · exact group_apply 3 (by omega) slices_S4096x8x1024_S4096x1x1024_0_3_0 slices_S8x1024x128_S1x1024x128_3_0_0 X W r c h

/-- Columns 512 .. 639 of the join are group 4. -/
theorem join_group4 (X : FVec Ideal S4096x8192 .f32) (W : FVec Ideal S8x1024x128 .f32) (r : Fin 4096) (c : Fin 1024)
    (h : c.val / 128 = 4) : Read.val_main_v41 (F := Ideal) X W (ix2 r c) = entry (R := 4096) X W r c := by
  have hcl := c.isLt
  unfold Read.val_main_v41
  refine Eq.trans (concatenate_apply_piece (1 : Fin 2) _ _ (ix2 r c) 4 ?_ S4096x128 (Read.val_main_v25 (F := Ideal) X W) ?_ rfl
    512 ?_ (ix2 r (lane c)) ?_ ?_) ?_
  · show 4 < 8
    omega
  · rfl
  · rfl
  · intro b hb
    match b with
    | ⟨0, _⟩ => rfl
    | ⟨1, _⟩ => exact absurd (Fin.ext rfl) hb
  · show 512 + c.val % 128 = c.val
    omega
  · exact group_apply 4 (by omega) slices_S4096x8x1024_S4096x1x1024_0_4_0 slices_S8x1024x128_S1x1024x128_4_0_0 X W r c h

/-- Columns 640 .. 767 of the join are group 5. -/
theorem join_group5 (X : FVec Ideal S4096x8192 .f32) (W : FVec Ideal S8x1024x128 .f32) (r : Fin 4096) (c : Fin 1024)
    (h : c.val / 128 = 5) : Read.val_main_v41 (F := Ideal) X W (ix2 r c) = entry (R := 4096) X W r c := by
  have hcl := c.isLt
  unfold Read.val_main_v41
  refine Eq.trans (concatenate_apply_piece (1 : Fin 2) _ _ (ix2 r c) 5 ?_ S4096x128 (Read.val_main_v30 (F := Ideal) X W) ?_ rfl
    640 ?_ (ix2 r (lane c)) ?_ ?_) ?_
  · show 5 < 8
    omega
  · rfl
  · rfl
  · intro b hb
    match b with
    | ⟨0, _⟩ => rfl
    | ⟨1, _⟩ => exact absurd (Fin.ext rfl) hb
  · show 640 + c.val % 128 = c.val
    omega
  · exact group_apply 5 (by omega) slices_S4096x8x1024_S4096x1x1024_0_5_0 slices_S8x1024x128_S1x1024x128_5_0_0 X W r c h

/-- Columns 768 .. 895 of the join are group 6. -/
theorem join_group6 (X : FVec Ideal S4096x8192 .f32) (W : FVec Ideal S8x1024x128 .f32) (r : Fin 4096) (c : Fin 1024)
    (h : c.val / 128 = 6) : Read.val_main_v41 (F := Ideal) X W (ix2 r c) = entry (R := 4096) X W r c := by
  have hcl := c.isLt
  unfold Read.val_main_v41
  refine Eq.trans (concatenate_apply_piece (1 : Fin 2) _ _ (ix2 r c) 6 ?_ S4096x128 (Read.val_main_v35 (F := Ideal) X W) ?_ rfl
    768 ?_ (ix2 r (lane c)) ?_ ?_) ?_
  · show 6 < 8
    omega
  · rfl
  · rfl
  · intro b hb
    match b with
    | ⟨0, _⟩ => rfl
    | ⟨1, _⟩ => exact absurd (Fin.ext rfl) hb
  · show 768 + c.val % 128 = c.val
    omega
  · exact group_apply 6 (by omega) slices_S4096x8x1024_S4096x1x1024_0_6_0 slices_S8x1024x128_S1x1024x128_6_0_0 X W r c h

/-- Columns 896 .. 1023 of the join are group 7. -/
theorem join_group7 (X : FVec Ideal S4096x8192 .f32) (W : FVec Ideal S8x1024x128 .f32) (r : Fin 4096) (c : Fin 1024)
    (h : c.val / 128 = 7) : Read.val_main_v41 (F := Ideal) X W (ix2 r c) = entry (R := 4096) X W r c := by
  have hcl := c.isLt
  unfold Read.val_main_v41
  refine Eq.trans (concatenate_apply_piece (1 : Fin 2) _ _ (ix2 r c) 7 ?_ S4096x128 (Read.val_main_v40 (F := Ideal) X W) ?_ rfl
    896 ?_ (ix2 r (lane c)) ?_ ?_) ?_
  · show 7 < 8
    omega
  · rfl
  · rfl
  · intro b hb
    match b with
    | ⟨0, _⟩ => rfl
    | ⟨1, _⟩ => exact absurd (Fin.ext rfl) hb
  · show 896 + c.val % 128 = c.val
    omega
  · exact group_apply 7 (by omega) slices_S4096x8x1024_S4096x1x1024_0_7_0 slices_S8x1024x128_S1x1024x128_7_0_0 X W r c h

/-- THE REFERENCE'S RESULT is the grouped product of its arguments: the join along the columns picks, for column
    c, group c / 128 at lane c % 128 (`join_group0` .. `join_group7`, each by `group_apply`). -/
theorem result_eq (X : FVec Ideal S4096x8192 .f32) (W : FVec Ideal S8x1024x128 .f32) :
    Read.val_main_v41 (F := Ideal) X W = product (R := 4096) X W := by
  funext i
  obtain ⟨r, c, rfl⟩ : ∃ (r : Fin 4096) (c : Fin 1024), i = ix2 r c := ⟨i 0, i 1, eq_ix2 i⟩
  rw [product_ix2]
  have hcl := c.isLt
  have hcases : c.val / 128 = 0 ∨ c.val / 128 = 1 ∨ c.val / 128 = 2 ∨ c.val / 128 = 3 ∨ c.val / 128 = 4
      ∨ c.val / 128 = 5 ∨ c.val / 128 = 6 ∨ c.val / 128 = 7 := by omega
  rcases hcases with h | h | h | h | h | h | h | h
  · exact join_group0 X W r c h
  · exact join_group1 X W r c h
  · exact join_group2 X W r c h
  · exact join_group3 X W r c h
  · exact join_group4 X W r c h
  · exact join_group5 X W r c h
  · exact join_group6 X W r c h
  · exact join_group7 X W r c h

end Cert.ReferenceIdeal.RefValue

end
-- ==== Proof.lean ====
/-
  The kernel and its reference compute the same grouped matrix product, at the extended reals.

  X is [4096, 8192], read as 8 groups of 1024 consecutive columns; W is [8, 1024, 128], one [1024, 128] matrix per
  group. The result is [4096, 1024]: entry (r, c) belongs to group g = c / 128 and is the sum over k < 1024 of
  X[r, 1024 g + k] * W[g, k, c % 128] (`Grouped.product`).

  The kernel works on 16 blocks of 256 rows. At each block it forms, for every group, the product of that group's
  1024 columns of the block with that group's matrix, into a zero accumulator, and stores it at the group's 128
  columns of the output block (`Block.out_block`); the 16 row blocks tile the output (`Array.run`).
  The reference reshapes X to [4096, 8, 1024], slices out each group, multiplies it by the matching slab of W and
  joins the 8 products along the columns (`RefValue.result_eq`).

  Both sides are the SAME sum of the SAME products over the same index set k < 1024, so no law of the extended reals
  beyond the definition of a matrix product is used and the finiteness of the inputs is never needed. The kernel read
  at exact values is the kernel's own text (nothing was rewritten), so `preserves` has nothing to state.
-/
import proofs.«110204_g34935263986399_cont_8to1_b_1924_11_alg».proof.Defs
import proofs.«110204_g34935263986399_cont_8to1_b_1924_11_alg».proof.Proof.Gen.Kernel
import proofs.«110204_g34935263986399_cont_8to1_b_1924_11_alg».proof.Proof.Gen.Kernel.Frame
import proofs.«110204_g34935263986399_cont_8to1_b_1924_11_alg».proof.Proof.Gen.KernelIdeal
import proofs.«110204_g34935263986399_cont_8to1_b_1924_11_alg».proof.Proof.Gen.KernelIdeal.Frame
import proofs.«110204_g34935263986399_cont_8to1_b_1924_11_alg».proof.Proof.Gen.KernelIdeal.Value
import proofs.«110204_g34935263986399_cont_8to1_b_1924_11_alg».proof.Proof.Gen.ReferenceIdeal
import proofs.«110204_g34935263986399_cont_8to1_b_1924_11_alg».proof.Proof.Gen.ReferenceIdeal.Run
import proofs.«110204_g34935263986399_cont_8to1_b_1924_11_alg».proof.Proof.Gen.ReferenceIdeal.Read
import proofs.«110204_g34935263986399_cont_8to1_b_1924_11_alg».proof.Proof.Gen.Pre_finite_inputs
import proofs.«110204_g34935263986399_cont_8to1_b_1924_11_alg».proof.Proof.KernelArray
import proofs.«110204_g34935263986399_cont_8to1_b_1924_11_alg».proof.Proof.ReferenceGroups

noncomputable section

namespace Cert.Proof

open Idealize.ShloMosaic Idealize.ShloMosaic.TcCoe Idealize.SL.Sem

/-- The kernel as printed runs, faults nowhere and keeps its arguments. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at exact values. -/
theorem preserves : Cert.preserves_Kernel_KernelIdeal := trivial

/-- From memories agreeing on X and W the kernel's result array and the reference's both end as the grouped
    product of X and W. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
